-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S200000 : Shape := ⟨1, ![200000]⟩
abbrev S1000000 : Shape := ⟨1, ![1000000]⟩
abbrev S2500465 : Shape := ⟨1, ![2500465]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : IVec S200000 32) (main_arg2 : IVec S1000000 32) (main_arg3 : IVec S1000000 32) (main_arg4 : IVec S1000000 32) (main_arg5 : IVec S2500465 32) (main_arg6 : IVec S2500465 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  main_v3
-- ==== Kernel.lean ====
abbrev S16384x512 : Shape := ⟨2, ![16384, 512]⟩
abbrev S200000 : Shape := ⟨1, ![200000]⟩
abbrev S1000000 : Shape := ⟨1, ![1000000]⟩
abbrev S2500465 : Shape := ⟨1, ![2500465]⟩
abbrev S16384x1 : Shape := ⟨2, ![16384, 1]⟩
abbrev S2048x512 : Shape := ⟨2, ![2048, 512]⟩
abbrev S2048x1 : Shape := ⟨2, ![2048, 1]⟩
abbrev S2048 : Shape := ⟨1, ![2048]⟩
abbrev S16384 : Shape := ⟨1, ![16384]⟩
abbrev S_ : Shape := ⟨0, ![]⟩
abbrev S2500465x1 : Shape := ⟨2, ![2500465, 1]⟩
abbrev S1000000x1 : Shape := ⟨2, ![1000000, 1]⟩
abbrev S200000x1 : Shape := ⟨2, ![200000, 1]⟩
abbrev S16384x1536 : Shape := ⟨2, ![16384, 1536]⟩
abbrev S2048x1536 : Shape := ⟨2, ![2048, 1536]⟩

abbrev nBuf : Space → Nat
  | .hbm => 110
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S200000, .i32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S2500465, .i32⟩
  | .hbm, ⟨6, _⟩ => ⟨S2500465, .i32⟩
  | .hbm, ⟨7, _⟩ => ⟨S16384x1, .f32⟩
  | .hbm, ⟨8, _⟩ => ⟨S16384, .f32⟩
  | .hbm, ⟨9, _⟩ => ⟨S_, .i32⟩
  | .hbm, ⟨10, _⟩ => ⟨S2500465, .i32⟩
  | .hbm, ⟨11, _⟩ => ⟨S2500465, .i1⟩
  | .hbm, ⟨12, _⟩ => ⟨S_, .i32⟩
  | .hbm, ⟨13, _⟩ => ⟨S2500465, .i32⟩
  | .hbm, ⟨14, _⟩ => ⟨S2500465, .i32⟩
  | .hbm, ⟨15, _⟩ => ⟨S2500465, .i32⟩
  | .hbm, ⟨16, _⟩ => ⟨S2500465x1, .i32⟩
  | .hbm, ⟨17, _⟩ => ⟨S2500465, .f32⟩
  | .hbm, ⟨18, _⟩ => ⟨S_, .f32⟩
  | .hbm, ⟨19, _⟩ => ⟨S1000000, .f32⟩
  | .hbm, ⟨20, _⟩ => ⟨S2500465x1, .i32⟩
  | .hbm, ⟨21, _⟩ => ⟨S1000000, .f32⟩
  | .hbm, ⟨22, _⟩ => ⟨S1000000, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000, .i32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000, .f32⟩
  | .hbm, ⟨50, _⟩ => ⟨S1000000, .f32⟩
  | .hbm, ⟨51, _⟩ => ⟨S_, .f32⟩
  | .hbm, ⟨52, _⟩ => ⟨S1000000, .f32⟩
  | .hbm, ⟨53, _⟩ => ⟨S1000000, .f32⟩
  | .hbm, ⟨54, _⟩ => ⟨S1000000, .f32⟩
  | .hbm, ⟨55, _⟩ => ⟨S1000000, .f32⟩
  | .hbm, ⟨56, _⟩ => ⟨S_, .f32⟩
  | .hbm, ⟨57, _⟩ => ⟨S1000000, .f32⟩
  | .hbm, ⟨58, _⟩ => ⟨S1000000, .f32⟩
  | .hbm, ⟨59, _⟩ => ⟨S_, .f32⟩
  | .hbm, ⟨60, _⟩ => ⟨S200000, .f32⟩
  | .hbm, ⟨61, _⟩ => ⟨S1000000x1, .i32⟩
  | .hbm, ⟨62, _⟩ => ⟨S200000, .f32⟩
  | .hbm, ⟨63, _⟩ => ⟨S_, .f32⟩
  | .hbm, ⟨64, _⟩ => ⟨S1000000, .f32⟩
  | .hbm, ⟨65, _⟩ => ⟨S_, .f32⟩
  | .hbm, ⟨66, _⟩ => ⟨S200000, .f32⟩
  | .hbm, ⟨67, _⟩ => ⟨S1000000x1, .i32⟩
  | .hbm, ⟨68, _⟩ => ⟨S200000, .f32⟩
  | .hbm, ⟨69, _⟩ => ⟨S_, .f32⟩
  | .hbm, ⟨70, _⟩ => ⟨S200000, .f32⟩
  | .hbm, ⟨71, _⟩ => ⟨S200000, .i1⟩
  | .hbm, ⟨72, _⟩ => ⟨S_, .f32⟩
  | .hbm, ⟨73, _⟩ => ⟨S200000, .f32⟩
  | .hbm, ⟨74, _⟩ => ⟨S200000, .f32⟩
  | .hbm, ⟨75, _⟩ => ⟨S200000, .f32⟩
  | .hbm, ⟨76, _⟩ => ⟨S_, .f32⟩
  | .hbm, ⟨77, _⟩ => ⟨S_, .f32⟩
  | .hbm, ⟨78, _⟩ => ⟨S200000, .f32⟩
  | .hbm, ⟨79, _⟩ => ⟨S200000, .f32⟩
  | .hbm, ⟨80, _⟩ => ⟨S_, .f32⟩
  | .hbm, ⟨81, _⟩ => ⟨S16384, .f32⟩
  | .hbm, ⟨82, _⟩ => ⟨S200000x1, .i32⟩
  | .hbm, ⟨83, _⟩ => ⟨S16384, .f32⟩
  | .hbm, ⟨84, _⟩ => ⟨S_, .f32⟩
  | .hbm, ⟨85, _⟩ => ⟨S200000, .f32⟩
  | .hbm, ⟨86, _⟩ => ⟨S200000, .i1⟩
  | .hbm, ⟨87, _⟩ => ⟨S_, .f32⟩
  | .hbm, ⟨88, _⟩ => ⟨S_, .f32⟩
  | .hbm, ⟨89, _⟩ => ⟨S200000, .f32⟩
  | .hbm, ⟨90, _⟩ => ⟨S200000, .f32⟩
  | .hbm, ⟨91, _⟩ => ⟨S200000, .f32⟩
  | .hbm, ⟨92, _⟩ => ⟨S200000, .f32⟩
  | .hbm, ⟨93, _⟩ => ⟨S_, .f32⟩
  | .hbm, ⟨94, _⟩ => ⟨S16384, .f32⟩
  | .hbm, ⟨95, _⟩ => ⟨S200000x1, .i32⟩
  | .hbm, ⟨96, _⟩ => ⟨S16384, .f32⟩
  | .hbm, ⟨97, _⟩ => ⟨S_, .f32⟩
  | .hbm, ⟨98, _⟩ => ⟨S16384, .f32⟩
  | .hbm, ⟨99, _⟩ => ⟨S16384, .i1⟩
  | .hbm, ⟨100, _⟩ => ⟨S_, .f32⟩
  | .hbm, ⟨101, _⟩ => ⟨S16384, .f32⟩
  | .hbm, ⟨102, _⟩ => ⟨S16384, .f32⟩
  | .hbm, ⟨103, _⟩ => ⟨S16384, .f32⟩
  | .hbm, ⟨104, _⟩ => ⟨S_, .f32⟩
  | .hbm, ⟨105, _⟩ => ⟨S_, .f32⟩
  | .hbm, ⟨106, _⟩ => ⟨S16384, .f32⟩
  | .hbm, ⟨107, _⟩ => ⟨S16384, .f32⟩
  | .hbm, ⟨108, _⟩ => ⟨S16384x1, .f32⟩
  | .hbm, ⟨109, _⟩ => ⟨S16384x1536, .f32⟩
  | .local _ .vmem, ⟨0, _⟩ => ⟨S2048x512, .f32⟩
  | .local _ .vmem, ⟨1, _⟩ => ⟨S2048x512, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x1536, .f32⟩
  | .local _ .vmem, ⟨7, _⟩ => ⟨S2048x1536, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_call0_v0 : Ref sig .tc := ⟨.hbm, 77, rfl⟩
abbrev main_call0_v1 : Ref sig .tc := ⟨.hbm, 78, rfl⟩
abbrev main_v53 : Ref sig .tc := ⟨.hbm, 79, rfl⟩
abbrev main_cst_15 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_16 : Ref sig .tc := ⟨.hbm, 84, rfl⟩
abbrev main_v57 : Ref sig .tc := ⟨.hbm, 85, rfl⟩
abbrev main_v58 : Ref sig .tc := ⟨.hbm, 86, rfl⟩
abbrev main_cst_17 : Ref sig .tc := ⟨.hbm, 87, rfl⟩
abbrev main_cst_18 : Ref sig .tc := ⟨.hbm, 88, rfl⟩
abbrev main_call1_v0 : Ref sig .tc := ⟨.hbm, 89, rfl⟩
abbrev main_call1_v1 : Ref sig .tc := ⟨.hbm, 90, rfl⟩
abbrev main_v59 : Ref sig .tc := ⟨.hbm, 91, rfl⟩
abbrev main_v60 : Ref sig .tc := ⟨.hbm, 92, rfl⟩
abbrev main_cst_19 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_20 : Ref sig .tc := ⟨.hbm, 97, rfl⟩
abbrev main_v64 : Ref sig .tc := ⟨.hbm, 98, rfl⟩
abbrev main_v65 : Ref sig .tc := ⟨.hbm, 99, rfl⟩
abbrev main_cst_21 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_22 : Ref sig .tc := ⟨.hbm, 104, rfl⟩
abbrev main_call2_v0 : Ref sig .tc := ⟨.hbm, 105, rfl⟩
abbrev main_call2_v1 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  bcast_S_S2500465 : S_.BroadcastsInDim S2500465 (![] : Fin 0 → Fin S2500465.rank)
  bcast_S2500465_S2500465x1_0 : S2500465.BroadcastsInDim S2500465x1 (![0] : Fin 1 → Fin S2500465x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000 : S_.BroadcastsInDim S200000 (![] : Fin 0 → Fin S200000.rank)
  bcast_S_S16384 : S_.BroadcastsInDim S16384 (![] : Fin 0 → Fin S16384.rank)
  bcast_S200000_S200000x1_0 : S200000.BroadcastsInDim S200000x1 (![0] : Fin 1 → Fin S200000x1.rank)
  shapeCasts_S16384_S16384x1 : S16384.ShapeCasts S16384x1
  shapeCasts_S2048x1_S2048x1 : S2048x1.ShapeCasts S2048x1
  broadcasts_S2048x1_S2048x1536 : S2048x1.Broadcasts S2048x1536
  inb_S2048x1536_S2048x1536_0_0 : ∀ a, (![0, 0] : Fin 2 → Nat) a + S2048x1536.size a ≤ S2048x1536.size a
  h_S2048x1536 : 0 < S2048x1536.numel
  gather_S16384_S2500465x1_S2500465_n_0_n_n_0_1_1_wf : GatherDims.WF S16384 S2500465x1 S2500465 [] [0] [] [0] [] 1 ![1]
  scatter_S1000000_S2500465x1_S2500465_n_0_0_1_wf : ScatterDims.WF S1000000 S2500465x1 S2500465 [] [0] [0] 1
  gather_S200000_S1000000x1_S1000000_n_0_n_n_0_1_1_wf : GatherDims.WF S200000 S1000000x1 S1000000 [] [0] [] [0] [] 1 ![1]
  gather_S16384_S1000000x1_S1000000_n_0_n_n_0_1_1_wf : GatherDims.WF S16384 S1000000x1 S1000000 [] [0] [] [0] [] 1 ![1]
  scatter_S200000_S1000000x1_S1000000_n_0_0_1_wf : ScatterDims.WF S200000 S1000000x1 S1000000 [] [0] [0] 1
  scatter_S16384_S200000x1_S200000_n_0_0_1_wf : ScatterDims.WF S16384 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .f32 = 32 ∨ (Rect.block (s := S16384x1) S2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S16384x1.size a
  hwx1_0 : ∀ i : grid1.Coords, EltTy.bits .f32 = 32 ∨ (Rect.block (s := S16384x1) S2048x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1536.size a ≤ S16384x1536.size a
  hwx1_1 : ∀ i : grid1.Coords, EltTy.bits .f32 = 32 ∨ (Rect.block (s := S16384x1536) S2048x1536.size (cc1_transform_1 i) (hinb1_1 i)).WholeWords (EltTy.packing .f32)

variable [Facts₀]

def gather_S16384_S2500465x1_S2500465_n_0_n_n_0_1_1 : GatherDims S16384 S2500465x1 S2500465 where
  offsetDims := []
  collapsedSliceDims := [0]
  operandBatchingDims := []
  startIndicesBatchingDims := []
  startIndexMap := [0]
  indexVectorDim := 1
  sliceSizes := ![1]
  wf := gather_S16384_S2500465x1_S2500465_n_0_n_n_0_1_1_wf
def scatter_S1000000_S2500465x1_S2500465_n_0_0_1 : ScatterDims S1000000 S2500465x1 S2500465 where
  updateWindowDims := []
  insertedWindowDims := [0]
  scatterDimsToOperandDims := [0]
  indexVectorDim := 1
  wf := scatter_S1000000_S2500465x1_S2500465_n_0_0_1_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def gather_S16384_S1000000x1_S1000000_n_0_n_n_0_1_1 : GatherDims S16384 S1000000x1 S1000000 where
  offsetDims := []
  collapsedSliceDims := [0]
  operandBatchingDims := []
  startIndicesBatchingDims := []
  startIndexMap := [0]
  indexVectorDim := 1
  sliceSizes := ![1]
  wf := gather_S16384_S1000000x1_S1000000_n_0_n_n_0_1_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def scatter_S16384_S200000x1_S200000_n_0_0_1 : ScatterDims S16384 S200000x1 S200000 where
  updateWindowDims := []
  insertedWindowDims := [0]
  scatterDimsToOperandDims := [0]
  indexVectorDim := 1
  wf := scatter_S16384_S200000x1_S200000_n_0_0_1_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v70) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S2048x1536.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16384x512 : Shape := ⟨2, ![16384, 512]⟩
abbrev S200000 : Shape := ⟨1, ![200000]⟩
abbrev S1000000 : Shape := ⟨1, ![1000000]⟩
abbrev S2500465 : Shape := ⟨1, ![2500465]⟩
abbrev S_ : Shape := ⟨0, ![]⟩
abbrev S16384 : Shape := ⟨1, ![16384]⟩
abbrev S2500465x1 : Shape := ⟨2, ![2500465, 1]⟩
abbrev S1000000x1 : Shape := ⟨2, ![1000000, 1]⟩
abbrev S200000x1 : Shape := ⟨2, ![200000, 1]⟩
abbrev S16384x1 : Shape := ⟨2, ![16384, 1]⟩
abbrev S16384x1536 : Shape := ⟨2, ![16384, 1536]⟩

abbrev nBuf : Space → Nat
  | .hbm => 113
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S200000, .i32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S2500465, .i32⟩
  | .hbm, ⟨6, _⟩ => ⟨S2500465, .i32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .i32⟩
  | .hbm, ⟨13, _⟩ => ⟨S2500465, .i32⟩
  | .hbm, ⟨14, _⟩ => ⟨S2500465, .i1⟩
  | .hbm, ⟨15, _⟩ => ⟨S_, .i32⟩
  | .hbm, ⟨16, _⟩ => ⟨S2500465, .i32⟩
  | .hbm, ⟨17, _⟩ => ⟨S2500465, .i32⟩
  | .hbm, ⟨18, _⟩ => ⟨S2500465, .i32⟩
  | .hbm, ⟨19, _⟩ => ⟨S2500465x1, .i32⟩
  | .hbm, ⟨20, _⟩ => ⟨S2500465, .f32⟩
  | .hbm, ⟨21, _⟩ => ⟨S_, .f32⟩
  | .hbm, ⟨22, _⟩ => ⟨S1000000, .f32⟩
  | .hbm, ⟨23, _⟩ => ⟨S2500465x1, .i32⟩
  | .hbm, ⟨24, _⟩ => ⟨S1000000, .f32⟩
  | .hbm, ⟨25, _⟩ => ⟨S1000000, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S1000000, .i32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000, .f32⟩
  | .hbm, ⟨44, _⟩ => ⟨S_, .i32⟩
  | .hbm, ⟨45, _⟩ => ⟨S1000000, .i32⟩
  | .hbm, ⟨46, _⟩ => ⟨S1000000, .i1⟩
  | .hbm, ⟨47, _⟩ => ⟨S_, .i32⟩
  | .hbm, ⟨48, _⟩ => ⟨S1000000, .i32⟩
  | .hbm, ⟨49, _⟩ => ⟨S1000000, .i32⟩
  | .hbm, ⟨50, _⟩ => ⟨S1000000, .i32⟩
  | .hbm, ⟨51, _⟩ => ⟨S1000000x1, .i32⟩
  | .hbm, ⟨52, _⟩ => ⟨S1000000, .f32⟩
  | .hbm, ⟨53, _⟩ => ⟨S1000000, .f32⟩
  | .hbm, ⟨54, _⟩ => ⟨S_, .f32⟩
  | .hbm, ⟨55, _⟩ => ⟨S1000000, .f32⟩
  | .hbm, ⟨56, _⟩ => ⟨S1000000, .f32⟩
  | .hbm, ⟨57, _⟩ => ⟨S1000000, .f32⟩
  | .hbm, ⟨58, _⟩ => ⟨S1000000, .f32⟩
  | .hbm, ⟨59, _⟩ => ⟨S_, .f32⟩
  | .hbm, ⟨60, _⟩ => ⟨S1000000, .f32⟩
  | .hbm, ⟨61, _⟩ => ⟨S1000000, .f32⟩
  | .hbm, ⟨62, _⟩ => ⟨S_, .f32⟩
  | .hbm, ⟨63, _⟩ => ⟨S200000, .f32⟩
  | .hbm, ⟨64, _⟩ => ⟨S1000000x1, .i32⟩
  | .hbm, ⟨65, _⟩ => ⟨S200000, .f32⟩
  | .hbm, ⟨66, _⟩ => ⟨S_, .f32⟩
  | .hbm, ⟨67, _⟩ => ⟨S1000000, .f32⟩
  | .hbm, ⟨68, _⟩ => ⟨S_, .f32⟩
  | .hbm, ⟨69, _⟩ => ⟨S200000, .f32⟩
  | .hbm, ⟨70, _⟩ => ⟨S1000000x1, .i32⟩
  | .hbm, ⟨71, _⟩ => ⟨S200000, .f32⟩
  | .hbm, ⟨72, _⟩ => ⟨S_, .f32⟩
  | .hbm, ⟨73, _⟩ => ⟨S200000, .f32⟩
  | .hbm, ⟨74, _⟩ => ⟨S200000, .i1⟩
  | .hbm, ⟨75, _⟩ => ⟨S_, .f32⟩
  | .hbm, ⟨76, _⟩ => ⟨S200000, .f32⟩
  | .hbm, ⟨77, _⟩ => ⟨S200000, .f32⟩
  | .hbm, ⟨78, _⟩ => ⟨S200000, .f32⟩
  | .hbm, ⟨79, _⟩ => ⟨S_, .f32⟩
  | .hbm, ⟨80, _⟩ => ⟨S_, .f32⟩
  | .hbm, ⟨81, _⟩ => ⟨S200000, .f32⟩
  | .hbm, ⟨82, _⟩ => ⟨S200000, .f32⟩
  | .hbm, ⟨83, _⟩ => ⟨S_, .f32⟩
  | .hbm, ⟨84, _⟩ => ⟨S16384, .f32⟩
  | .hbm, ⟨85, _⟩ => ⟨S200000x1, .i32⟩
  | .hbm, ⟨86, _⟩ => ⟨S16384, .f32⟩
  | .hbm, ⟨87, _⟩ => ⟨S_, .f32⟩
  | .hbm, ⟨88, _⟩ => ⟨S200000, .f32⟩
  | .hbm, ⟨89, _⟩ => ⟨S200000, .i1⟩
  | .hbm, ⟨90, _⟩ => ⟨S_, .f32⟩
  | .hbm, ⟨91, _⟩ => ⟨S_, .f32⟩
  | .hbm, ⟨92, _⟩ => ⟨S200000, .f32⟩
  | .hbm, ⟨93, _⟩ => ⟨S200000, .f32⟩
  | .hbm, ⟨94, _⟩ => ⟨S200000, .f32⟩
  | .hbm, ⟨95, _⟩ => ⟨S200000, .f32⟩
  | .hbm, ⟨96, _⟩ => ⟨S_, .f32⟩
  | .hbm, ⟨97, _⟩ => ⟨S16384, .f32⟩
  | .hbm, ⟨98, _⟩ => ⟨S200000x1, .i32⟩
  | .hbm, ⟨99, _⟩ => ⟨S16384, .f32⟩
  | .hbm, ⟨100, _⟩ => ⟨S_, .f32⟩
  | .hbm, ⟨101, _⟩ => ⟨S16384, .f32⟩
  | .hbm, ⟨102, _⟩ => ⟨S16384, .i1⟩
  | .hbm, ⟨103, _⟩ => ⟨S_, .f32⟩
  | .hbm, ⟨104, _⟩ => ⟨S16384, .f32⟩
  | .hbm, ⟨105, _⟩ => ⟨S16384, .f32⟩
  | .hbm, ⟨106, _⟩ => ⟨S16384, .f32⟩
  | .hbm, ⟨107, _⟩ => ⟨S_, .f32⟩
  | .hbm, ⟨108, _⟩ => ⟨S_, .f32⟩
  | .hbm, ⟨109, _⟩ => ⟨S16384, .f32⟩
  | .hbm, ⟨110, _⟩ => ⟨S16384, .f32⟩
  | .hbm, ⟨111, _⟩ => ⟨S16384x1, .f32⟩
  | .hbm, ⟨112, _⟩ => ⟨S16384x1536, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_v50 : Ref sig .tc := ⟨.hbm, 74, rfl⟩
abbrev main_cst_15 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_16 : Ref sig .tc := ⟨.hbm, 79, rfl⟩
abbrev main_call0_v0 : Ref sig .tc := ⟨.hbm, 80, rfl⟩
abbrev main_call0_v1 : Ref sig .tc := ⟨.hbm, 81, rfl⟩
abbrev main_v54 : Ref sig .tc := ⟨.hbm, 82, rfl⟩
abbrev main_cst_17 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_18 : Ref sig .tc := ⟨.hbm, 87, rfl⟩
abbrev main_v58 : Ref sig .tc := ⟨.hbm, 88, rfl⟩
abbrev main_v59 : Ref sig .tc := ⟨.hbm, 89, rfl⟩
abbrev main_cst_19 : Ref sig .tc := ⟨.hbm, 90, rfl⟩
abbrev main_cst_20 : Ref sig .tc := ⟨.hbm, 91, rfl⟩
abbrev main_call1_v0 : Ref sig .tc := ⟨.hbm, 92, rfl⟩
abbrev main_call1_v1 : Ref sig .tc := ⟨.hbm, 93, rfl⟩
abbrev main_v60 : Ref sig .tc := ⟨.hbm, 94, rfl⟩
abbrev main_v61 : Ref sig .tc := ⟨.hbm, 95, rfl⟩
abbrev main_cst_21 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_22 : Ref sig .tc := ⟨.hbm, 100, rfl⟩
abbrev main_v65 : Ref sig .tc := ⟨.hbm, 101, rfl⟩
abbrev main_v66 : Ref sig .tc := ⟨.hbm, 102, rfl⟩
abbrev main_cst_23 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_24 : Ref sig .tc := ⟨.hbm, 107, rfl⟩
abbrev main_call2_v0 : Ref sig .tc := ⟨.hbm, 108, rfl⟩
abbrev main_call2_v1 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S_S16384 : S_.BroadcastsInDim S16384 (![] : Fin 0 → Fin S16384.rank)
  bcast_S_S2500465 : S_.BroadcastsInDim S2500465 (![] : Fin 0 → Fin S2500465.rank)
  bcast_S2500465_S2500465x1_0 : S2500465.BroadcastsInDim S2500465x1 (![0] : Fin 1 → Fin S2500465x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000 : S_.BroadcastsInDim S200000 (![] : Fin 0 → Fin S200000.rank)
  bcast_S200000_S200000x1_0 : S200000.BroadcastsInDim S200000x1 (![0] : Fin 1 → Fin S200000x1.rank)
  bcast_S16384_S16384x1_0 : S16384.BroadcastsInDim S16384x1 (![0] : Fin 1 → Fin S16384x1.rank)
  bcast_S16384x1_S16384x1536_0_1 : S16384x1.BroadcastsInDim S16384x1536 (![0, 1] : Fin 2 → Fin S16384x1536.rank)
  gather_S16384_S2500465x1_S2500465_n_0_n_n_0_1_1_wf : GatherDims.WF S16384 S2500465x1 S2500465 [] [0] [] [0] [] 1 ![1]
  scatter_S1000000_S2500465x1_S2500465_n_0_0_1_wf : ScatterDims.WF S1000000 S2500465x1 S2500465 [] [0] [0] 1
  gather_S200000_S1000000x1_S1000000_n_0_n_n_0_1_1_wf : GatherDims.WF S200000 S1000000x1 S1000000 [] [0] [] [0] [] 1 ![1]
  gather_S16384_S1000000x1_S1000000_n_0_n_n_0_1_1_wf : GatherDims.WF S16384 S1000000x1 S1000000 [] [0] [] [0] [] 1 ![1]
  scatter_S200000_S1000000x1_S1000000_n_0_0_1_wf : ScatterDims.WF S200000 S1000000x1 S1000000 [] [0] [0] 1
  scatter_S16384_S200000x1_S200000_n_0_0_1_wf : ScatterDims.WF S16384 S200000x1 S200000 [] [0] [0] 1

variable [Facts₀]

def gather_S16384_S2500465x1_S2500465_n_0_n_n_0_1_1 : GatherDims S16384 S2500465x1 S2500465 where
  offsetDims := []
  collapsedSliceDims := [0]
  operandBatchingDims := []
  startIndicesBatchingDims := []
  startIndexMap := [0]
  indexVectorDim := 1
  sliceSizes := ![1]
  wf := gather_S16384_S2500465x1_S2500465_n_0_n_n_0_1_1_wf
def scatter_S1000000_S2500465x1_S2500465_n_0_0_1 : ScatterDims S1000000 S2500465x1 S2500465 where
  updateWindowDims := []
  insertedWindowDims := [0]
  scatterDimsToOperandDims := [0]
  indexVectorDim := 1
  wf := scatter_S1000000_S2500465x1_S2500465_n_0_0_1_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def gather_S16384_S1000000x1_S1000000_n_0_n_n_0_1_1 : GatherDims S16384 S1000000x1 S1000000 where
  offsetDims := []
  collapsedSliceDims := [0]
  operandBatchingDims := []
  startIndicesBatchingDims := []
  startIndexMap := [0]
  indexVectorDim := 1
  sliceSizes := ![1]
  wf := gather_S16384_S1000000x1_S1000000_n_0_n_n_0_1_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def scatter_S16384_S200000x1_S200000_n_0_0_1 : ScatterDims S16384 S200000x1 S200000 where
  updateWindowDims := []
  insertedWindowDims := [0]
  scatterDimsToOperandDims := [0]
  indexVectorDim := 1
  wf := scatter_S16384_S200000x1_S200000_n_0_0_1_wf

class Facts : Prop extends Facts₀ where

variable [Facts]
-- ==== Proof.NamedRun.lean ====
/-
  The idealized kernel's run with its result named.

  @main is a pallas_call, a stretch of host operations, and a second pallas_call. Running it from any memory, every
  weakly fair execution terminates without a fault, and at the end every buffer the program does not scope holds the
  contents of the last segment boundary: the fold, from the launch memory, of what the first region's write-backs
  leave, then of each host operation's result, then of what the second region's write-backs leave. The frame claim
  reads only the argument buffers off that last boundary; read here, beside them, is the result buffer, which the
  last boundary holds at the second region's output array after its last write-back.
-/
import proofs.«179465_j3058016714859_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument buffers as launched. -/
theorem run_named : θ_run defs (onTc (τ := τ) (main (F := F))) ⟨m, fun _ => 0, ρ⟩ (fun r => ∀ c : Dev nD,
      r.2.mem ((c.tc : Thread nD τ).loc main_v71) = W9 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v71 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

/-- The last boundary holds, at the result buffer, the second region's output array after its last write-back. -/
theorem result_array (c : Dev nD) :
    W9 m ρ c (Proc.devRef .tc main_v71) = (dat1 (V8 m ρ) c).arrAt 1 cfg1.N := W9_arr m ρ c 1

/-- The first boundary holds, at the first region's result buffer, its output array after its last write-back. -/
theorem mean_array (c : Dev nD) :
    W1 m ρ c (Proc.devRef .tc main_v0) = (dat0 (V0 m ρ) c).arrAt 1 cfg0.N := W1_arr m ρ c 1

end Cert.KernelIdeal.NamedRun

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«179465_j3058016714859_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibRowBlock.lean ====
/-
  Row blocks of a matrix, and what the operations of a dense layer do to them.

  `RowBlk r x X` says that the M×N matrix `x` is rows r, r+1, …, r+M-1 of the M'×N matrix `X`. Every operation that
  acts entry by entry takes row blocks to row blocks (`map₁`, `map₂`, `map₃`), and so do the operations of a dense
  layer whose other operand is shared by all rows: the product of a row block with a K×N matrix, accumulated from
  zero, is the same row block of the host's product of the whole matrix (every entry of either is the sum over k of
  row entries times the shared column); a bias row [1,N] spread over the block's rows is the row block of the bias
  spread over all rows; a column block [M,1] spread over N columns is the row block of the whole column spread.
  Over the extended reals where a sum is read; generic in the extents.
-/
import proofs.«179465_j3058016714859_1_alg».proof.Proof.LibMatmulPlain
import proofs.«179465_j3058016714859_1_alg».proof.Proof.LibDotGeneralPlain
import proofs.«179465_j3058016714859_1_alg».proof.Proof.LibHostBroadcast
import proofs.«179465_j3058016714859_1_alg».proof.Proof.LibColumns
import Idealize.ShloMosaic.Lib.ValueLayout

noncomputable section

open scoped BigOperators

namespace Cert.LibRowBlock

open Idealize.ShloMosaic Idealize.ShloMosaic.ValueIdx

variable {α β γ δ : Type} {M M' N K : ℕ}

/-- `x` is rows r … r+M-1 of `X`. -/
def RowBlk (r : ℕ) (x : (⟨2, ![M, N]⟩ : Shape).Idx → α) (X : (⟨2, ![M', N]⟩ : Shape).Idx → α) : Prop :=
  ∀ (p : Fin M) (q : Fin N) (h : r + p.val < M'), x (ix2 p q) = X (ix2 ⟨r + p.val, h⟩ q)

namespace RowBlk

variable {r : ℕ}

/-- The same entry everywhere. -/
theorem const (a : α) : RowBlk (M := M) (M' := M') (N := N) r (fun _ => a) (fun _ => a) := fun _ _ _ => rfl

/-- An operation applied entry by entry. -/
theorem map₁ (f : α → β) {x : (⟨2, ![M, N]⟩ : Shape).Idx → α} {X : (⟨2, ![M', N]⟩ : Shape).Idx → α} (hx : RowBlk r x X) :
    RowBlk r (fun i => f (x i)) (fun i => f (X i)) := fun p q h => congrArg f (hx p q h)

theorem map₂ (f : α → β → γ) {x : (⟨2, ![M, N]⟩ : Shape).Idx → α} {X : (⟨2, ![M', N]⟩ : Shape).Idx → α}
    {y : (⟨2, ![M, N]⟩ : Shape).Idx → β} {Y : (⟨2, ![M', N]⟩ : Shape).Idx → β} (hx : RowBlk r x X) (hy : RowBlk r y Y) :
    RowBlk r (fun i => f (x i) (y i)) (fun i => f (X i) (Y i)) := fun p q h => by
  show f (x (ix2 p q)) (y (ix2 p q)) = f (X _) (Y _)
  rw [hx p q h, hy p q h]

theorem map₃ (f : α → β → γ → δ) {x : (⟨2, ![M, N]⟩ : Shape).Idx → α} {X : (⟨2, ![M', N]⟩ : Shape).Idx → α}
    {y : (⟨2, ![M, N]⟩ : Shape).Idx → β} {Y : (⟨2, ![M', N]⟩ : Shape).Idx → β}
    {z : (⟨2, ![M, N]⟩ : Shape).Idx → γ} {Z : (⟨2, ![M', N]⟩ : Shape).Idx → γ}
    (hx : RowBlk r x X) (hy : RowBlk r y Y) (hz : RowBlk r z Z) :
    RowBlk r (fun i => f (x i) (y i) (z i)) (fun i => f (X i) (Y i) (Z i)) := fun p q h => by
  show f (x (ix2 p q)) (y (ix2 p q)) (z (ix2 p q)) = f (X _) (Y _) (Z _)
  rw [hx p q h, hy p q h, hz p q h]

/-- The product of a row block with a shared matrix, from the zero accumulator, is the row block of the host's
    product of the whole matrix. -/
theorem matmul_dot {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision) (sched : HostSchedule)
    {x : FVec Ideal ⟨2, ![M, K]⟩ φ₁} {X : FVec Ideal ⟨2, ![M', K]⟩ φ₁} (w : FVec Ideal ⟨2, ![K, N]⟩ φ₂) (hx : RowBlk r x X) :
    RowBlk r (FloatOps.matmul D prec x w (constant (F := Ideal) ⟨2, ![M, N]⟩ .f32 0x00000000#32))
      (FloatOps.dotGeneral D' prec' sched X w) := fun p q h => by
  rw [Cert.LibMatmulPlain.matmul_plain_zero_apply D hD, Cert.LibDotGeneralPlain.dotGeneral_plain_apply D' hD']
  exact Finset.sum_congr rfl fun k _ => by rw [hx p k h]

/-- A bias row spread over the rows of a block and over the rows of the whole matrix. -/
theorem rowBias (b : (⟨2, ![1, N]⟩ : Shape).Idx → α) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) :
    RowBlk r (broadcastTo ⟨2, ![M, N]⟩ b hb) (broadcastInDim ⟨2, ![M', N]⟩ dims hB b) := fun p q h => by
  rw [broadcastTo_1b_ab_apply, Cert.LibHostBroadcast.bcast_1b_ab_apply dims hd1 hB]

/-- A [1,N] row spread over the rows by a host broadcast, both as the block and as the whole. -/
theorem rowSpread (b : (⟨2, ![1, N]⟩ : Shape).Idx → α)
    (dims : Fin (⟨2, ![1, N]⟩ : Shape).rank → Fin (⟨2, ![M, N]⟩ : Shape).rank)
    (hd : dims ⟨1, Nat.lt_succ_self 1⟩ = ⟨1, Nat.lt_succ_self 1⟩)
    (hb : (⟨2, ![1, N]⟩ : Shape).BroadcastsInDim ⟨2, ![M, N]⟩ dims)
    (dims' : Fin (⟨2, ![1, N]⟩ : Shape).rank → Fin (⟨2, ![M', N]⟩ : Shape).rank)
    (hd' : dims' ⟨1, Nat.lt_succ_self 1⟩ = ⟨1, Nat.lt_succ_self 1⟩)
    (hB : (⟨2, ![1, N]⟩ : Shape).BroadcastsInDim ⟨2, ![M', N]⟩ dims') :
    RowBlk r (broadcastInDim ⟨2, ![M, N]⟩ dims hb b) (broadcastInDim ⟨2, ![M', N]⟩ dims' hB b) := fun p q h => by
  rw [Cert.LibHostBroadcast.bcast_1b_ab_apply dims hd hb, Cert.LibHostBroadcast.bcast_1b_ab_apply dims' hd' hB]

/-- A column block spread over N columns is the row block of the whole column spread over N columns. -/
theorem colSpread {x : (⟨2, ![M, 1]⟩ : Shape).Idx → α} {X : (⟨2, ![M', 1]⟩ : Shape).Idx → α} (hx : RowBlk r x X)
    (hb : (⟨2, ![M, 1]⟩ : Shape).Broadcasts ⟨2, ![M, N]⟩)
    (dims : Fin (⟨2, ![M', 1]⟩ : Shape).rank → Fin (⟨2, ![M', N]⟩ : Shape).rank)
    (hd0 : dims ⟨0, Nat.succ_pos 1⟩ = ⟨0, Nat.succ_pos 1⟩)
    (hB : (⟨2, ![M', 1]⟩ : Shape).BroadcastsInDim ⟨2, ![M', N]⟩ dims) :
    RowBlk r (broadcastTo ⟨2, ![M, N]⟩ x hb) (broadcastInDim ⟨2, ![M', N]⟩ dims hB X) := fun p q h => by
  rw [Cert.Columns.broadcastTo_a1_ab_apply, Cert.LibHostBroadcast.bcast_a1_ab_apply dims hd0 hB]
  exact hx p 0 h

/-- Reading a row block at an entry of the block. -/
theorem apply {x : (⟨2, ![M, N]⟩ : Shape).Idx → α} {X : (⟨2, ![M', N]⟩ : Shape).Idx → α} (hx : RowBlk r x X)
    (j : (⟨2, ![M, N]⟩ : Shape).Idx) (i : (⟨2, ![M', N]⟩ : Shape).Idx) (h0 : (i 0).val = r + (j 0).val) (h1 : (i 1).val = (j 1).val) :
    x j = X i := by
  obtain ⟨p, q, rfl⟩ : ∃ (p : Fin M) (q : Fin N), j = ix2 p q := ⟨j 0, j 1, eq_ix2 j⟩
  have h0' : (i 0).val = r + p.val := h0
  have h1' : (i 1).val = q.val := h1
  have hi0 : (i 0).val < M' := (i 0).isLt
  have hlt : r + p.val < M' := by omega
  have hi : i = ix2 ⟨r + p.val, hlt⟩ q := by
    rw [eq_ix2 i]
    congr 1
    · exact Fin.ext h0'
    · exact Fin.ext h1'
  rw [hi]
  exact hx p q _

/-- A matrix read through an index map that shifts the rows by r and keeps the columns is a row block. -/
theorem of_read (X : (⟨2, ![M', N]⟩ : Shape).Idx → α) (e : (⟨2, ![M, N]⟩ : Shape).Idx → (⟨2, ![M', N]⟩ : Shape).Idx)
    (h0 : ∀ j, (e j 0).val = r + (j 0).val) (h1 : ∀ j, (e j 1).val = (j 1).val) :
    RowBlk r (fun j => X (e j)) X := fun p q h => by
  refine congrArg X ?_
  rw [eq_ix2 (e (ix2 p q))]
  congr 1
  · exact Fin.ext (h0 _)
  · exact Fin.ext (h1 _)

end RowBlk

end Cert.LibRowBlock

end
-- ==== Proof.LibRowLanes.lean ====
/-
  Lane reductions of row blocks.

  A reduction along the lanes (the columns) of a matrix looks at one row at a time, so it takes a row block to the
  same rows of the reduction of the whole matrix. Two reductions are read here, each kept as a column: the maximum
  of a row, which a kernel takes as a fold of max from minus infinity and the host as a fold from minus infinity
  followed by one more max with minus infinity (a maximum is at least where its fold starts, so the extra max
  changes nothing); and the sum of a row, which the host takes from an initial value of zero. The logarithm of a
  column is entry by entry. Over the extended reals; generic in the extents.
-/
import proofs.«179465_j3058016714859_1_alg».proof.Proof.LibRowBlock
import Idealize.ShloMosaic.PureOps.Ideal.Laws

noncomputable section

open scoped BigOperators

namespace Cert.LibRowBlock

open Idealize.ShloMosaic Idealize.ShloMosaic.ValueIdx

variable {M M' N : ℕ} {r : ℕ}

/-- The index of the matrix over row p whose lane coordinate is k. -/
theorem lift_lane (h : (⟨2, ![M, N]⟩ : Shape).Reduces [(1 : Fin 2)] ⟨1, ![M]⟩) (p : Fin M) (k : Fin N) :
    h.lift (ix1 p) k = ix2 p k := by
  funext c
  apply Fin.ext
  match c with
  | ⟨0, _⟩ => rfl
  | ⟨1, _⟩ => rfl

/-- A fold of max is at least its starting value, so one more max with that value changes nothing. -/
theorem max_fold_max {ι : Type} (s : Finset ι) (a : EReal) (f : ι → EReal) : max a (s.fold max a f) = s.fold max a f :=
  max_eq_right ((Finset.le_fold_max a).mpr (Or.inl le_rfl))

namespace RowBlk

/-- The maximum of each row, kept as a column. -/
theorem laneMax {φ : FTy} (acc : BitVec φ.bits)
    (hred : (⟨2, ![M, N]⟩ : Shape).Reduces [(1 : Fin 2)] ⟨1, ![M]⟩) (hφ : FKind.Formats φ)
    (hacc : acc = FKind.maximumf.neutral φ hφ) (hc : (⟨1, ![M]⟩ : Shape).ShapeCasts ⟨2, ![M, 1]⟩)
    (hredT : (⟨2, ![M', N]⟩ : Shape).ReducesTo [(1 : Fin 2)] ⟨1, ![M']⟩)
    (hred' : (⟨2, ![M', N]⟩ : Shape).Reduces [(1 : Fin 2)] ⟨1, ![M']⟩)
    (hu : 0 < (⟨0, ![]⟩ : Shape).numel)
    (d0 : Fin (⟨0, ![]⟩ : Shape).rank → Fin (⟨1, ![M']⟩ : Shape).rank) (h0 : (⟨0, ![]⟩ : Shape).BroadcastsInDim ⟨1, ![M']⟩ d0)
    (dims : Fin (⟨1, ![M']⟩ : Shape).rank → Fin (⟨2, ![M', 1]⟩ : Shape).rank) (hd : dims ⟨0, Nat.one_pos⟩ = ⟨0, Nat.succ_pos 1⟩)
    (hB : (⟨1, ![M']⟩ : Shape).BroadcastsInDim ⟨2, ![M', 1]⟩ dims)
    {x : FVec Ideal ⟨2, ![M, N]⟩ φ} {X : FVec Ideal ⟨2, ![M', N]⟩ φ} (hx : RowBlk r x X) :
    RowBlk r (shapeCast ⟨2, ![M, 1]⟩ (multiReduction .maximumf [1] ⟨1, ![M]⟩ x acc hred hφ hacc) hc)
      (broadcastInDim ⟨2, ![M', 1]⟩ dims hB
        (maximumf (broadcastInDim ⟨1, ![M']⟩ d0 h0 (constant (F := Ideal) ⟨0, ![]⟩ φ acc))
          (Host.reduce FloatOps.maximumf X (constant (F := Ideal) ⟨0, ![]⟩ φ acc) hredT hu))) := fun p q h => by
  rw [Cert.Columns.shapeCast_a_a1_apply, Cert.LibHostBroadcast.bcast_a_a1_apply dims hd hB]
  show multiReduction .maximumf [1] ⟨1, ![M]⟩ x acc hred hφ hacc (ix1 p)
    = max (Ideal.ofBits φ acc) (Host.reduce FloatOps.maximumf X (constant (F := Ideal) ⟨0, ![]⟩ φ acc) hredT hu (ix1 ⟨r + p.val, h⟩))
  rw [Ideal.multiReduction_maximumf_single, Host.reduce_eq_fold_single FloatOps.maximumf X _ hredT hred' hu]
  have e : (x ∘ hred.lift (ix1 p)) = (X ∘ hred'.lift (ix1 ⟨r + p.val, h⟩)) := funext fun k => by
    show x (hred.lift (ix1 p) k) = X (hred'.lift (ix1 ⟨r + p.val, h⟩) k)
    rw [lift_lane hred p k, lift_lane hred' ⟨r + p.val, h⟩ k]
    exact hx p k h
  rw [e]
  exact (max_fold_max _ _ _).symm

/-- The sum of each row, kept as a column; the host's sum starts from zero. -/
theorem laneSum (hred : (⟨2, ![M, N]⟩ : Shape).Reduces [(1 : Fin 2)] ⟨1, ![M]⟩) (hφ : FKind.Formats .f32)
    (hacc : (0x00000000#32 : BitVec 32) = FKind.add.neutral .f32 hφ) (hc : (⟨1, ![M]⟩ : Shape).ShapeCasts ⟨2, ![M, 1]⟩)
    (hredT : (⟨2, ![M', N]⟩ : Shape).ReducesTo [(1 : Fin 2)] ⟨1, ![M']⟩)
    (hred' : (⟨2, ![M', N]⟩ : Shape).Reduces [(1 : Fin 2)] ⟨1, ![M']⟩)
    (hu : 0 < (⟨0, ![]⟩ : Shape).numel)
    (dims : Fin (⟨1, ![M']⟩ : Shape).rank → Fin (⟨2, ![M', 1]⟩ : Shape).rank) (hd : dims ⟨0, Nat.one_pos⟩ = ⟨0, Nat.succ_pos 1⟩)
    (hB : (⟨1, ![M']⟩ : Shape).BroadcastsInDim ⟨2, ![M', 1]⟩ dims)
    {x : FVec Ideal ⟨2, ![M, N]⟩ .f32} {X : FVec Ideal ⟨2, ![M', N]⟩ .f32} (hx : RowBlk r x X) :
    RowBlk r (shapeCast ⟨2, ![M, 1]⟩ (multiReduction .add [1] ⟨1, ![M]⟩ x 0x00000000#32 hred hφ hacc) hc)
      (broadcastInDim ⟨2, ![M', 1]⟩ dims hB
        (Host.reduceAdd X (constant (F := Ideal) ⟨0, ![]⟩ .f32 0x00000000#32) hredT hu)) := fun p q h => by
  rw [Cert.Columns.shapeCast_a_a1_apply, Cert.LibHostBroadcast.bcast_a_a1_apply dims hd hB]
  rw [Ideal.multiReduction_add_single]
  simp only [Host.reduceAdd, Ideal.hostReduceAdd_def]
  rw [Ideal.hostReduceAdd_single hredT hred']
  show _ = Ideal.ofBits .f32 0x00000000#32 + _
  rw [Ideal.ofBits_zero_f32, zero_add]
  refine Finset.sum_congr rfl fun k _ => ?_
  rw [lift_lane hred p k, lift_lane hred' ⟨r + p.val, h⟩ k]
  exact hx p k h

/-- The logarithm of a column, the kernel's and the host's, entry by entry. -/
theorem log_hostLog {φ : FTy} {x : FVec Ideal ⟨2, ![M, N]⟩ φ} {X : FVec Ideal ⟨2, ![M', N]⟩ φ} (hx : RowBlk r x X) :
    RowBlk r (Idealize.ShloMosaic.log x) (Host.log X) := RowBlk.map₁ Ideal.log hx

/-- The larger of two entries, entry by entry. -/
theorem maximumf {φ : FTy} {x y : FVec Ideal ⟨2, ![M, N]⟩ φ} {X Y : FVec Ideal ⟨2, ![M', N]⟩ φ} (hx : RowBlk r x X) (hy : RowBlk r y Y) :
    RowBlk r (Idealize.ShloMosaic.maximumf x y) (Idealize.ShloMosaic.maximumf X Y) := RowBlk.map₂ FloatOps.maximumf hx hy

end RowBlk

end Cert.LibRowBlock

end
-- ==== Proof.RowMean.lean ====
/-
  The first kernel: the mean of each row, kept as a column.

  The kernel reads the [16384, 512] matrix in eight blocks of 2048 rows and writes, for each, the [2048, 1] column whose
  entry (p, 0) is (0 + the sum of row p of the block) / 512. Block t of the input is rows 2048 t … 2048 t + 2047 of the
  matrix, and a sum along the lanes looks at one row at a time, so the block written is the same rows of ONE column: the
  host's row sum of the whole matrix (a sum from zero) divided by 512, placed along axis 0 of an [16384, 1] column.
  On the extended reals the kernel's quotient and the host's are the same operation, and the divisor is the same word on
  both sides. The eight output blocks tile the column (row i lies in block i / 2048), so after the last write-back the
  array is that column.
-/
import proofs.«179465_j3058016714859_1_alg».proof.Proof.Gen.KernelIdeal.Frame
import proofs.«179465_j3058016714859_1_alg».proof.Proof.LibRowLanes
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.RowMean

open Cert.KernelIdeal Cert.KernelIdeal.Gen Cert.LibRowBlock

variable (V : (c : Dev nD) → (b : Ref sig .tc) → Buf (Elt Ideal) ((c : Thread nD τ).loc b))

theorem hz : (![0, 0] : Fin 2 → Nat) = fun _ => 0 := funext fun a => by fin_cases a <;> rfl

/-- At grid point t both windows sit at block t along the rows and block 0 along the columns. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The host's mean of every row of a matrix — its row sums from zero, divided by 512 — placed as a column. -/
abbrev columnMean (X : FVec Ideal S16384x512 .f32) (hredT : S16384x512.ReducesTo [1] S16384) (hS : 0 < S_.numel)
    (hb : S_.BroadcastsInDim S16384 ![]) (hB : S16384.BroadcastsInDim S16384x1 ![0]) : FVec Ideal S16384x1 .f32 :=
  broadcastInDim S16384x1 ![0] hB
    (Host.divf (F := Ideal) (Host.reduceAdd (F := Ideal) X (constant (F := Ideal) S_ .f32 0x00000000#32) hredT hS)
      (broadcastInDim S16384 ![] hb (constant (F := Ideal) S_ .f32 0x44000000#32)))

/-- What the body stores, for a block that is rows r … of a matrix X: the same rows of the column of X's row means. -/
theorem mean_block {r : ℕ} (x : FVec Ideal S2048x512 .f32) (X : FVec Ideal S16384x512 .f32)
    (hx : RowBlk (M := 2048) (M' := 16384) (N := 512) r x X) (hredT : S16384x512.ReducesTo [1] S16384) (hS : 0 < S_.numel)
    (hb : S_.BroadcastsInDim S16384 ![]) (hB : S16384.BroadcastsInDim S16384x1 ![0]) :
    RowBlk (M := 2048) (M' := 16384) (N := 1) r (k0_pay1 x) (columnMean X hredT hS hb hB) := fun p q h => by
  have hsum := RowBlk.laneSum (r := r) reduces_S2048x512_S2048 (.inl rfl) rfl shapeCasts_S2048_S2048x1 hredT (by decide) hS
    ![0] rfl hB hx p q h
  show Ideal.div (shapeCast S2048x1 (multiReduction .add [1] S2048 x 0x00000000#32 reduces_S2048x512_S2048 (.inl rfl) rfl) shapeCasts_S2048_S2048x1 (ix2 p q)) (Ideal.ofBits .f32 0x44000000#32) = _
  rw [hsum, Cert.LibHostBroadcast.bcast_a_a1_apply ![0] rfl hB]
  unfold columnMean
  rw [Cert.LibHostBroadcast.bcast_a_a1_apply ![0] rfl hB]
  show _ = Ideal.div _ (broadcastInDim S16384 ![] hb (constant (F := Ideal) S_ .f32 0x44000000#32) (ix1 ⟨r + p.val, h⟩))
  rw [Cert.LibHostBroadcast.bcast_scalar_apply]
  rfl

/-- The input block at point t is rows 2048 t … of the matrix the region finds. -/
theorem input_rows (c : Dev nD) (t : Fin cfg0.N) :
    RowBlk (M := 2048) (M' := 16384) (N := 512) (2048 * t.val) (iblk0 V c 0 t) (V c main_arg0) := fun p q h => by
  obtain ⟨e0, e1, -, -⟩ := block_index t
  show V c main_arg0 (((cfg0.win 0).blk t).view.emb (ix2 p q)) = V c main_arg0 (ix2 ⟨2048 * t.val + p.val, h⟩ q)
  refine congrArg _ (funext fun a => Fin.ext ?_)
  match a with
  | ⟨0, _⟩ => show win0_0.index t (0 : Fin 2) * 2048 + 1 * p.val = 2048 * t.val + p.val; omega
  | ⟨1, _⟩ => show win0_0.index t (1 : Fin 2) * 512 + 1 * q.val = q.val; omega

/-- What point t writes back is block t of the column of row means. -/
theorem flushed_eq (c : Dev nD) (hredT : S16384x512.ReducesTo [1] S16384) (hS : 0 < S_.numel)
    (hb : S_.BroadcastsInDim S16384 ![]) (hB : S16384.BroadcastsInDim S16384x1 ![0]) (t : Fin cfg0.N) :
    (dat0 V c).flushed 1 t = ((cfg0.win 1).blk t).view.read (Elt Ideal) (columnMean (V c main_arg0) hredT hS hb hB) := by
  show (cfg0.win 1).cut (grid0.coords t) ((dat0 V c).after 1 t) = _
  rw [after0_1]
  unfold out0_1
  rw [View.canon_unit_zero hz]
  simp only [View.ld_unit_zero (S := S2048x512) hz]
  obtain ⟨-, -, e2, e3⟩ := block_index t
  funext j
  refine (mean_block _ _ (input_rows V c t) hredT hS hb hB).apply j _ ?_ ?_
  · show win0_1.index t (0 : Fin 2) * 2048 + 1 * (j 0).val = 2048 * t.val + (j 0).val; omega
  · show win0_1.index t (1 : Fin 2) * 1 + 1 * (j 1).val = (j 1).val; omega

/-- An index of the array is in point t's block iff each coordinate is in the block's range on its axis. -/
theorem mem_blk (t : Fin cfg0.N) (i : S16384x1.Idx) :
    i ∈ ((cfg0.win 1).blk t).view.set ↔ ∀ a : Fin 2, win0_1.index t a * S2048x1.size a ≤ (i a).val ∧ (i a).val < win0_1.index t a * S2048x1.size a + S2048x1.size a := by
  show i ∈ ((View.whole main_v0).slice (win0_1.rect t)).set ↔ _
  rw [View.set_slice_whole, Rect.mem_set_unit]
  exact Iff.rfl

/-- The eight blocks tile the column: row i is in block i / 2048. -/
theorem cover (i : S16384x1.Idx) : ∃ t : Fin cfg0.N, (cfg0.win 1).flush t = true ∧ i ∈ ((cfg0.win 1).blk t).view.set := by
  have hi0 : (i 0).val < 16384 := (i 0).isLt
  have hi1 : (i 1).val < 1 := (i 1).isLt
  have hN : cfg0.N = 8 := N_0
  have ht : (i 0).val / 2048 < cfg0.N := by rw [hN]; omega
  obtain ⟨-, -, e2, e3⟩ := block_index ⟨(i 0).val / 2048, ht⟩
  refine ⟨⟨(i 0).val / 2048, ht⟩, flush0_1 _, ?_⟩
  rw [mem_blk]
  intro a
  match a with
  | ⟨0, _⟩ =>
    show win0_1.index ⟨(i 0).val / 2048, ht⟩ (0 : Fin 2) * 2048 ≤ (i 0).val ∧ (i 0).val < win0_1.index ⟨(i 0).val / 2048, ht⟩ (0 : Fin 2) * 2048 + 2048
    rw [e2]; show (i 0).val / 2048 * 2048 ≤ (i 0).val ∧ (i 0).val < (i 0).val / 2048 * 2048 + 2048; omega
  | ⟨1, _⟩ =>
    show win0_1.index ⟨(i 0).val / 2048, ht⟩ (1 : Fin 2) * 1 ≤ (i 1).val ∧ (i 1).val < win0_1.index ⟨(i 0).val / 2048, ht⟩ (1 : Fin 2) * 1 + 1
    rw [e3]; omega

/-- After the region the result array is the column of the row means of the matrix as the region found it. -/
theorem final (c : Dev nD) (hredT : S16384x512.ReducesTo [1] S16384) (hS : 0 < S_.numel)
    (hb : S_.BroadcastsInDim S16384 ![]) (hB : S16384.BroadcastsInDim S16384x1 ![0]) :
    (dat0 V c).arrAt 1 cfg0.N = columnMean (V c main_arg0) hredT hS hb hB :=
  (dat0 V c).arrAt_eq_of_cover 1 _ (fun t _ => flushed_eq V c hredT hS hb hB t) cover

end Cert.KernelIdeal.RowMean

end
-- ==== Proof.ColSpread.lean ====
/-
  The second kernel: a column spread over 1536 lanes.

  The kernel reads an [16384, 1] column in eight blocks of 2048 rows and writes, for each, the [2048, 1536] block whose
  entry (p, c) is the column block's entry (p, 0). Block t of the input is rows 2048 t … 2048 t + 2047 of the column, and
  block t of the output is the same rows of the result, so every block written is the matching row block of ONE array:
  the whole column spread over 1536 columns, which is what a host broadcast of the column along axis 1 is. The eight
  output blocks tile the [16384, 1536] array (row i lies in block i / 2048), so after the last write-back the array
  is that broadcast.
-/
import proofs.«179465_j3058016714859_1_alg».proof.Proof.Gen.KernelIdeal.Frame
import proofs.«179465_j3058016714859_1_alg».proof.Proof.LibRowBlock
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Spread

open Cert.KernelIdeal Cert.KernelIdeal.Gen Cert.LibRowBlock

variable (V : (c : Dev nD) → (b : Ref sig .tc) → Buf (Elt Ideal) ((c : Thread nD τ).loc b))

theorem hz : (![0, 0] : Fin 2 → Nat) = fun _ => 0 := funext fun a => by fin_cases a <;> rfl

/-- At grid point t both windows sit at block t along the rows and block 0 along the columns. -/
theorem block_index : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What the body stores, for a block that is rows r … of a column X: the same rows of X spread over the lanes. The
    two casts of the body are casts of a shape to itself. -/
theorem spread_block {r : ℕ} (x : FVec Ideal S2048x1 .f32) (X : FVec Ideal S16384x1 .f32)
    (hx : RowBlk (M := 2048) (M' := 16384) (N := 1) r x X) (hB : S16384x1.BroadcastsInDim S16384x1536 ![0, 1]) :
    RowBlk (M := 2048) (M' := 16384) (N := 1536) r (k1_pay1 x) (broadcastInDim S16384x1536 ![0, 1] hB X) := by
  unfold k1_pay1
  simp only [shapeCast_self]
  exact RowBlk.colSpread hx broadcasts_S2048x1_S2048x1536 ![0, 1] rfl hB

/-- The input block at point t is rows 2048 t … of the column the region finds. -/
theorem input_rows (c : Dev nD) (t : Fin cfg1.N) :
    RowBlk (M := 2048) (M' := 16384) (N := 1) (2048 * t.val) (iblk1 V c 0 t) (V c main_v70) := fun p q h => by
  obtain ⟨e0, e1, -, -⟩ := block_index t
  show V c main_v70 (((cfg1.win 0).blk t).view.emb (ix2 p q)) = V c main_v70 (ix2 ⟨2048 * t.val + p.val, h⟩ q)
  refine congrArg _ (funext fun a => Fin.ext ?_)
  match a with
  | ⟨0, _⟩ => show win1_0.index t (0 : Fin 2) * 2048 + 1 * p.val = 2048 * t.val + p.val; omega
  | ⟨1, _⟩ => show win1_0.index t (1 : Fin 2) * 1 + 1 * q.val = q.val; omega

/-- What point t writes back is block t of the column spread over the lanes. -/
theorem flushed_eq (c : Dev nD) (hB : S16384x1.BroadcastsInDim S16384x1536 ![0, 1]) (t : Fin cfg1.N) :
    (dat1 V c).flushed 1 t = ((cfg1.win 1).blk t).view.read (Elt Ideal) (broadcastInDim S16384x1536 ![0, 1] hB (V c main_v70)) := by
  show (cfg1.win 1).cut (grid1.coords t) ((dat1 V c).after 1 t) = _
  rw [after1_1]
  unfold out1_1
  rw [View.canon_unit_zero hz]
  simp only [View.ld_unit_zero (S := S2048x1) hz]
  obtain ⟨-, -, e2, e3⟩ := block_index t
  funext j
  refine (spread_block _ _ (input_rows V c t) hB).apply j _ ?_ ?_
  · show win1_1.index t (0 : Fin 2) * 2048 + 1 * (j 0).val = 2048 * t.val + (j 0).val; omega
  · show win1_1.index t (1 : Fin 2) * 1536 + 1 * (j 1).val = (j 1).val; omega

/-- An index of the array is in point t's block iff each coordinate is in the block's range on its axis. -/
theorem mem_blk (t : Fin cfg1.N) (i : S16384x1536.Idx) :
    i ∈ ((cfg1.win 1).blk t).view.set ↔ ∀ a : Fin 2, win1_1.index t a * S2048x1536.size a ≤ (i a).val ∧ (i a).val < win1_1.index t a * S2048x1536.size a + S2048x1536.size a := by
  show i ∈ ((View.whole main_v71).slice (win1_1.rect t)).set ↔ _
  rw [View.set_slice_whole, Rect.mem_set_unit]
  exact Iff.rfl

/-- The eight blocks tile the array: row i is in block i / 2048. -/
theorem cover (i : S16384x1536.Idx) : ∃ t : Fin cfg1.N, (cfg1.win 1).flush t = true ∧ i ∈ ((cfg1.win 1).blk t).view.set := by
  have hi0 : (i 0).val < 16384 := (i 0).isLt
  have hi1 : (i 1).val < 1536 := (i 1).isLt
  have hN : cfg1.N = 8 := N_1
  have ht : (i 0).val / 2048 < cfg1.N := by rw [hN]; omega
  obtain ⟨-, -, e2, e3⟩ := block_index ⟨(i 0).val / 2048, ht⟩
  refine ⟨⟨(i 0).val / 2048, ht⟩, flush1_1 _, ?_⟩
  rw [mem_blk]
  intro a
  match a with
  | ⟨0, _⟩ =>
    show win1_1.index ⟨(i 0).val / 2048, ht⟩ (0 : Fin 2) * 2048 ≤ (i 0).val ∧ (i 0).val < win1_1.index ⟨(i 0).val / 2048, ht⟩ (0 : Fin 2) * 2048 + 2048
    rw [e2]; show (i 0).val / 2048 * 2048 ≤ (i 0).val ∧ (i 0).val < (i 0).val / 2048 * 2048 + 2048; omega
  | ⟨1, _⟩ =>
    show win1_1.index ⟨(i 0).val / 2048, ht⟩ (1 : Fin 2) * 1536 ≤ (i 1).val ∧ (i 1).val < win1_1.index ⟨(i 0).val / 2048, ht⟩ (1 : Fin 2) * 1536 + 1536
    rw [e3]; omega

/-- After the region the result array is the column, as the region found it, spread over 1536 columns. -/
theorem final (c : Dev nD) (hB : S16384x1.BroadcastsInDim S16384x1536 ![0, 1]) :
    (dat1 V c).arrAt 1 cfg1.N = broadcastInDim S16384x1536 ![0, 1] hB (V c main_v70) :=
  (dat1 V c).arrAt_eq_of_cover 1 _ (fun t _ => flushed_eq V c hB t) cover

end Cert.KernelIdeal.Spread

end
-- ==== Proof.LibColumnVector.lean ====
/-
  A vector and the column that holds it.

  A vector of length a placed along axis 0 of an [a, 1] column (a host broadcast) and the same vector cast to the shape
  [a, 1] are one array: entry (p, 0) is the vector's entry p either way, both sitting at row-major position p. So the
  cast of the column back to a vector returns the vector, and the cast of the vector to a column is the broadcast.
  Generic in the length and the element type; the axis map is passed with its value.
-/
import proofs.«179465_j3058016714859_1_alg».proof.Proof.LibColumns
import proofs.«179465_j3058016714859_1_alg».proof.Proof.LibHostBroadcast

namespace Cert.ColumnVector

open Idealize.ShloMosaic Idealize.ShloMosaic.ValueIdx

variable {α : Type}

/-- A vector placed as a column and cast back to a vector is the vector. -/
theorem shapeCast_column {a : ℕ} (dims : Fin (⟨1, ![a]⟩ : Shape).rank → Fin (⟨2, ![a, 1]⟩ : Shape).rank)
    (hd : dims ⟨0, Nat.one_pos⟩ = ⟨0, Nat.succ_pos 1⟩) (hB : (⟨1, ![a]⟩ : Shape).BroadcastsInDim ⟨2, ![a, 1]⟩ dims)
    (hc : (⟨2, ![a, 1]⟩ : Shape).ShapeCasts ⟨1, ![a]⟩) (y : (⟨1, ![a]⟩ : Shape).Idx → α) :
    shapeCast ⟨1, ![a]⟩ (broadcastInDim ⟨2, ![a, 1]⟩ dims hB y) hc = y := by
  funext i
  obtain ⟨p, rfl⟩ : ∃ p : Fin a, i = ix1 p := ⟨i 0, eq_ix1 i⟩
  rw [shapeCast_apply _ hc (ix1 p) (ix2 p (0 : Fin 1)) (by
    rw [Shape.rowMajor_val_two, Shape.rowMajor_val_one]
    show p.val * 1 + 0 = p.val
    rw [Nat.mul_one, Nat.add_zero])]
  exact Cert.LibHostBroadcast.bcast_a_a1_apply dims hd hB y p 0

/-- A vector cast to a column is the vector placed along axis 0 of the column. -/
theorem shapeCast_eq_column {a : ℕ} (dims : Fin (⟨1, ![a]⟩ : Shape).rank → Fin (⟨2, ![a, 1]⟩ : Shape).rank)
    (hd : dims ⟨0, Nat.one_pos⟩ = ⟨0, Nat.succ_pos 1⟩) (hB : (⟨1, ![a]⟩ : Shape).BroadcastsInDim ⟨2, ![a, 1]⟩ dims)
    (hc : (⟨1, ![a]⟩ : Shape).ShapeCasts ⟨2, ![a, 1]⟩) (y : (⟨1, ![a]⟩ : Shape).Idx → α) :
    shapeCast ⟨2, ![a, 1]⟩ y hc = broadcastInDim ⟨2, ![a, 1]⟩ dims hB y := by
  funext i
  obtain ⟨p, u, rfl⟩ : ∃ (p : Fin a) (u : Fin 1), i = ix2 p u := ⟨i 0, i 1, eq_ix2 i⟩
  rw [Cert.Columns.shapeCast_a_a1_apply, Cert.LibHostBroadcast.bcast_a_a1_apply dims hd hB]

end Cert.ColumnVector
-- ==== Proof.Bridge.lean ====
/-
  The idealized kernel's result and the reference's are one array.

  The kernel program's last segment boundary holds, at the result buffer, the second region's output array: the column
  the region read, spread over 1536 columns. That column is the last host value cast to an [16384, 1] column, which is
  the value placed along axis 0. The host values are the fold of the host operations from the first region's exit
  contents; the first of them casts the first region's column (the column of row means) back to a vector, which is the
  host's vector of row means, and no operation or region has written an argument. So the vector the kernel program
  spreads is the host chain applied to the row means and the arguments — the reference's own term, once its memory is
  rewritten to the kernel's by the agreement of the arguments. The two spreads are the same two broadcasts.
-/
import proofs.«179465_j3058016714859_1_alg».proof.Proof.NamedRun
import proofs.«179465_j3058016714859_1_alg».proof.Proof.RowMean
import proofs.«179465_j3058016714859_1_alg».proof.Proof.ColSpread
import proofs.«179465_j3058016714859_1_alg».proof.Proof.RefRunPatched
import proofs.«179465_j3058016714859_1_alg».proof.Proof.LibColumnVector
import Idealize.ShloMosaic.Lib.StableHlo.Run

noncomputable section

open Idealize.ShloMosaic Idealize.ShloMosaic.TcCoe Idealize.ShloMosaic.ValueIdx Idealize.SL.Sem Idealize.ShloMosaic.StableHlo

namespace Cert.Bridge

open Cert.KernelIdeal Cert.KernelIdeal.Gen

variable (m : (ℓ : Loc nD τ sig) → Buf (Elt Ideal) ℓ) (ρ : Dev nD → PrngReg)

/-- The host's mean of every row of the first argument, as the reference spells it. -/
abbrev rowMeans (c : Dev nD) : FVec Ideal S16384 .f32 :=
  Host.divf (F := Ideal)
    (Host.reduceAdd (F := Ideal) (m ((c : Thread nD τ).loc main_arg0)) (constant (F := Ideal) S_ .f32 0x00000000#32)
      Cert.ReferenceIdeal.Gen.reducesTo_S16384x512_S16384_d1 Cert.ReferenceIdeal.Gen.h_S_)
    (broadcastInDim S16384 ![] Cert.ReferenceIdeal.Gen.bcast_S_S16384 (constant (F := Ideal) S_ .f32 0x44000000#32))

/-- The first host operation casts the first region's column to a vector: the vector of the row means. -/
theorem node_mean (c : Dev nD) :
    (StableHlo.reshape main_v0 main_v1 rfl shapeCasts_S16384x1_S16384 : HloOp τ sig (Elt Ideal)).result (W1 m ρ c) (Proc.devRef .tc main_v1)
      = rowMeans m c := by
  rw [reshape_result]
  show shapeCast S16384 (W1 m ρ c (Proc.devRef .tc main_v0)) shapeCasts_S16384x1_S16384 = _
  rw [NamedRun.mean_array, RowMean.final (V0 m ρ) c Cert.ReferenceIdeal.Gen.reducesTo_S16384x512_S16384_d1 Cert.ReferenceIdeal.Gen.h_S_ Cert.ReferenceIdeal.Gen.bcast_S_S16384 Cert.ReferenceIdeal.Gen.bcast_S16384_S16384x1_0]
  exact Cert.ColumnVector.shapeCast_column ![0] rfl _ _ _

/-- No region and no host operation so far has written argument 1. -/
theorem arg1_kept (c : Dev nD) :
    (StableHlo.reshape main_v0 main_v1 rfl shapeCasts_S16384x1_S16384 : HloOp τ sig (Elt Ideal)).result (W1 m ρ c) (Proc.devRef .tc main_arg1)
      = m ((c : Thread nD τ).loc main_arg1) := by
  rw [reshape_result_ne _ _ _ _ _ _ _ (by decide)]
  exact W1_of_ne m ρ c main_arg1 (by decide)

/-- No region and no host operation so far has written argument 2. -/
theorem arg2_kept (c : Dev nD) :
    (StableHlo.reshape main_v0 main_v1 rfl shapeCasts_S16384x1_S16384 : HloOp τ sig (Elt Ideal)).result (W1 m ρ c) (Proc.devRef .tc main_arg2)
      = m ((c : Thread nD τ).loc main_arg2) := by
  rw [reshape_result_ne _ _ _ _ _ _ _ (by decide)]
  exact W1_of_ne m ρ c main_arg2 (by decide)

/-- No region and no host operation so far has written argument 3. -/
theorem arg3_kept (c : Dev nD) :
    (StableHlo.reshape main_v0 main_v1 rfl shapeCasts_S16384x1_S16384 : HloOp τ sig (Elt Ideal)).result (W1 m ρ c) (Proc.devRef .tc main_arg3)
      = m ((c : Thread nD τ).loc main_arg3) := by
  rw [reshape_result_ne _ _ _ _ _ _ _ (by decide)]
  exact W1_of_ne m ρ c main_arg3 (by decide)

/-- No region and no host operation so far has written argument 4. -/
theorem arg4_kept (c : Dev nD) :
    (StableHlo.reshape main_v0 main_v1 rfl shapeCasts_S16384x1_S16384 : HloOp τ sig (Elt Ideal)).result (W1 m ρ c) (Proc.devRef .tc main_arg4)
      = m ((c : Thread nD τ).loc main_arg4) := by
  rw [reshape_result_ne _ _ _ _ _ _ _ (by decide)]
  exact W1_of_ne m ρ c main_arg4 (by decide)

/-- No region and no host operation so far has written argument 5. -/
theorem arg5_kept (c : Dev nD) :
    (StableHlo.reshape main_v0 main_v1 rfl shapeCasts_S16384x1_S16384 : HloOp τ sig (Elt Ideal)).result (W1 m ρ c) (Proc.devRef .tc main_arg5)
      = m ((c : Thread nD τ).loc main_arg5) := by
  rw [reshape_result_ne _ _ _ _ _ _ _ (by decide)]
  exact W1_of_ne m ρ c main_arg5 (by decide)

/-- No region and no host operation so far has written argument 6. -/
theorem arg6_kept (c : Dev nD) :
    (StableHlo.reshape main_v0 main_v1 rfl shapeCasts_S16384x1_S16384 : HloOp τ sig (Elt Ideal)).result (W1 m ρ c) (Proc.devRef .tc main_arg6)
      = m ((c : Thread nD τ).loc main_arg6) := by
  rw [reshape_result_ne _ _ _ _ _ _ _ (by decide)]
  exact W1_of_ne m ρ c main_arg6 (by decide)

/-! The three stretches that come from jnp.where are, operation by operation, a copy of the fill value, its broadcast, and a
    select: stated at the buffers' own types the transports along the buffers' type equations are the identity. -/

set_option maxRecDepth 4000 in
theorem where0 : (hostOps1_1 : List (HloOp τ sig (Elt Ideal))) =
    [ StableHlo.unary main_cst_14 main_call0_v0 (id : (⟨S_, .f32⟩ : BufTy).Contents (Elt Ideal) → (⟨S_, .f32⟩ : BufTy).Contents (Elt Ideal)),
      StableHlo.unary main_call0_v0 main_call0_v1 (broadcastInDim S200000 ![] bcast_S_S200000 : (⟨S_, .f32⟩ : BufTy).Contents (Elt Ideal) → (⟨S200000, .f32⟩ : BufTy).Contents (Elt Ideal)),
      StableHlo.ternary main_v49 main_v52 main_call0_v1 main_v53 (select : (⟨S200000, .i1⟩ : BufTy).Contents (Elt Ideal) → (⟨S200000, .f32⟩ : BufTy).Contents (Elt Ideal) → (⟨S200000, .f32⟩ : BufTy).Contents (Elt Ideal) → (⟨S200000, .f32⟩ : BufTy).Contents (Elt Ideal)) ] := rfl

set_option maxRecDepth 4000 in
theorem where1 : (hostOps1_3 : List (HloOp τ sig (Elt Ideal))) =
    [ StableHlo.unary main_cst_17 main_call1_v0 (broadcastInDim S200000 ![] bcast_S_S200000 : (⟨S_, .f32⟩ : BufTy).Contents (Elt Ideal) → (⟨S200000, .f32⟩ : BufTy).Contents (Elt Ideal)),
      StableHlo.unary main_cst_18 main_call1_v1 (broadcastInDim S200000 ![] bcast_S_S200000 : (⟨S_, .f32⟩ : BufTy).Contents (Elt Ideal) → (⟨S200000, .f32⟩ : BufTy).Contents (Elt Ideal)),
      StableHlo.ternary main_v58 main_call1_v0 main_call1_v1 main_v59 (select : (⟨S200000, .i1⟩ : BufTy).Contents (Elt Ideal) → (⟨S200000, .f32⟩ : BufTy).Contents (Elt Ideal) → (⟨S200000, .f32⟩ : BufTy).Contents (Elt Ideal) → (⟨S200000, .f32⟩ : BufTy).Contents (Elt Ideal)) ] := rfl

set_option maxRecDepth 4000 in
theorem where2 : (hostOps1_5 : List (HloOp τ sig (Elt Ideal))) =
    [ StableHlo.unary main_cst_22 main_call2_v0 (id : (⟨S_, .f32⟩ : BufTy).Contents (Elt Ideal) → (⟨S_, .f32⟩ : BufTy).Contents (Elt Ideal)),
      StableHlo.unary main_call2_v0 main_call2_v1 (broadcastInDim S16384 ![] bcast_S_S16384 : (⟨S_, .f32⟩ : BufTy).Contents (Elt Ideal) → (⟨S16384, .f32⟩ : BufTy).Contents (Elt Ideal)),
      StableHlo.ternary main_v65 main_v68 main_call2_v1 main_v69 (select : (⟨S16384, .i1⟩ : BufTy).Contents (Elt Ideal) → (⟨S16384, .f32⟩ : BufTy).Contents (Elt Ideal) → (⟨S16384, .f32⟩ : BufTy).Contents (Elt Ideal) → (⟨S16384, .f32⟩ : BufTy).Contents (Elt Ideal)) ] := rfl

/-- The column the second region reads is the last host value placed along axis 0. -/
theorem column_in (c : Dev nD) :
    V8 m ρ c main_v70 = broadcastInDim S16384x1 ![0] Cert.ReferenceIdeal.Gen.bcast_S16384_S16384x1_0 (W7 m ρ c (Proc.devRef .tc main_v69)) := by
  show StableHlo.after hostOps1_6 (W7 m ρ c) (Proc.devRef .tc main_v70) = _
  generalize W7 m ρ c = W
  after_results
  exact Cert.ColumnVector.shapeCast_eq_column ![0] rfl _ _ _

set_option maxRecDepth 100000 in
set_option maxHeartbeats 4000000 in
/-- The reference's result array is the array the last boundary of the idealized kernel's run holds at its result buffer.
    Both are the [16384] vector that the shared host operations compute from the row means and the integer arguments,
    placed as a column and spread over 1536 columns: the reference by two broadcasts, the kernel by a cast and its
    second region. The vector is the same because the host operations are the same, read from the same row means
    (the first region's column, cast to a vector) and the same arguments; the operations themselves are never opened. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    Cert.ReferenceIdeal.ValueP.res_main_v72 m' c = W9 m ρ c (Proc.devRef .tc main_v71) := by
  -- the kernel side: the second region's array is the column it read, spread; the column is the last host value as a column
  rw [NamedRun.result_array, Spread.final (V8 m ρ) c Cert.ReferenceIdeal.Gen.bcast_S16384x1_S16384x1536_0_1, column_in]
  -- the reference side: its composed term, read at the kernel's memory (the arguments agree)
  unfold Cert.ReferenceIdeal.ValueP.res_main_v72
  rw [h0, h1, h2, h3, h4, h5, h6]
  -- both sides are the same two broadcasts of a vector: it is enough that the vectors agree
  generalize hK : W7 m ρ c (Proc.devRef .tc main_v69) = K
  have spread : ∀ (y y' : FVec Ideal Cert.ReferenceIdeal.S16384 .f32), y = y' →
      (broadcastInDim Cert.ReferenceIdeal.S16384x1536 ![0, 1] Cert.ReferenceIdeal.Gen.bcast_S16384x1_S16384x1536_0_1
        (broadcastInDim Cert.ReferenceIdeal.S16384x1 ![0] Cert.ReferenceIdeal.Gen.bcast_S16384_S16384x1_0 y) : FVec Ideal Cert.ReferenceIdeal.S16384x1536 .f32)
      = broadcastInDim Cert.ReferenceIdeal.S16384x1536 ![0, 1] Cert.ReferenceIdeal.Gen.bcast_S16384x1_S16384x1536_0_1
        (broadcastInDim Cert.ReferenceIdeal.S16384x1 ![0] Cert.ReferenceIdeal.Gen.bcast_S16384_S16384x1_0 y') := fun _ _ h => by rw [h]
  refine spread _ K ?_
  rw [← hK]
  clear hK K
  symm
  -- the kernel's vector is the fold of the host operations from the first region's exit contents; its first operation is
  -- the cast of the first region's column, whose result is the vector of row means, and it writes no argument
  unfold W7 W6 W5 W4 W3 W2
  have hpeel : StableHlo.after (hostOps1 : List (HloOp τ sig (Elt Ideal))) (W1 m ρ c)
      = StableHlo.after (List.tail hostOps1)
          ((StableHlo.reshape main_v0 main_v1 rfl shapeCasts_S16384x1_S16384 : HloOp τ sig (Elt Ideal)).result (W1 m ρ c)) :=
    StableHlo.after_cons _ _ _
  rw [hpeel]
  clear hpeel
  have l0 := node_mean m ρ c
  have l1 := arg1_kept m ρ c
  have l2 := arg2_kept m ρ c
  have l3 := arg3_kept m ρ c
  have l4 := arg4_kept m ρ c
  have l5 := arg5_kept m ρ c
  have l6 := arg6_kept m ρ c
  generalize (StableHlo.reshape main_v0 main_v1 rfl shapeCasts_S16384x1_S16384 : HloOp τ sig (Elt Ideal)).result (W1 m ρ c) = Wv at l0 l1 l2 l3 l4 l5 l6 ⊢
  -- every other operation's result is its function of the contents before it: the fold becomes a term over the row means
  -- and the arguments
  rw [where0, where1, where2]
  simp only [hostOps1, hostOps1_2, hostOps1_4, List.tail_cons]
  after_results_simp
  simp only [l0, l1, l2, l3, l4, l5, l6]
  -- the two programs' gather and scatter dimension records are the same records
  have r0 : (Cert.KernelIdeal.gather_S16384_S2500465x1_S2500465_n_0_n_n_0_1_1 : GatherDims _ _ _) = Cert.ReferenceIdeal.gather_S16384_S2500465x1_S2500465_n_0_n_n_0_1_1 := rfl
  have r1 : (Cert.KernelIdeal.gather_S200000_S1000000x1_S1000000_n_0_n_n_0_1_1 : GatherDims _ _ _) = Cert.ReferenceIdeal.gather_S200000_S1000000x1_S1000000_n_0_n_n_0_1_1 := rfl
  have r2 : (Cert.KernelIdeal.gather_S16384_S1000000x1_S1000000_n_0_n_n_0_1_1 : GatherDims _ _ _) = Cert.ReferenceIdeal.gather_S16384_S1000000x1_S1000000_n_0_n_n_0_1_1 := rfl
  have r3 : (Cert.KernelIdeal.scatter_S1000000_S2500465x1_S2500465_n_0_0_1 : ScatterDims _ _ _) = Cert.ReferenceIdeal.scatter_S1000000_S2500465x1_S2500465_n_0_0_1 := rfl
  have r4 : (Cert.KernelIdeal.scatter_S200000_S1000000x1_S1000000_n_0_0_1 : ScatterDims _ _ _) = Cert.ReferenceIdeal.scatter_S200000_S1000000x1_S1000000_n_0_0_1 := rfl
  have r5 : (Cert.KernelIdeal.scatter_S16384_S200000x1_S200000_n_0_0_1 : ScatterDims _ _ _) = Cert.ReferenceIdeal.scatter_S16384_S200000x1_S200000_n_0_0_1 := rfl
  simp only [r0, r1, r2, r3, r4, r5]

end Cert.Bridge

end
-- ==== Proof.lean ====
/-
  The certificate: a row-mean kernel, a stretch of gather / segment-sum host operations, and a broadcast kernel, against the
  same computation written in jnp.

  Both programs compute, from an [16384, 512] matrix of finite floats and six integer index arrays, the [16384] vector that
  a fixed chain of host operations (gathers, scatter-adds, quotients, selects) makes of the matrix's row means and the
  indices, and return it spread over 1536 columns. The kernel program takes the row means in a pallas_call (eight blocks of
  2048 rows: the sum of each row from zero, divided by 512), runs the same host chain, and spreads the vector in a second
  pallas_call (eight blocks of 2048 rows, each entry copied along its row). The reference takes the row means by a host
  sum from zero and a host quotient by 512, and spreads the vector by two broadcasts.

  On the extended reals the two row means are one function (a lane sum and a host sum of the same row, from the same
  zero, over the same divisor word; the kernel's quotient and the host's are the same operation), the host chain is the
  same text applied to the same values, and the two spreads put entry i of the vector at every (i, j). No law that needs
  finiteness is used, so the precondition is never opened.

  The three frames: the two kernel programs' are the generated frame certificates; the reference's is its run with the
  result dropped. The idealization rewrote nothing, so its claim is trivial.
-/
import proofs.«179465_j3058016714859_1_alg».proof.Defs
import proofs.«179465_j3058016714859_1_alg».proof.Proof.Gen.Kernel
import proofs.«179465_j3058016714859_1_alg».proof.Proof.Gen.Kernel.Skeleton
import proofs.«179465_j3058016714859_1_alg».proof.Proof.Gen.Kernel.Launch
import proofs.«179465_j3058016714859_1_alg».proof.Proof.Gen.Kernel.Points
import proofs.«179465_j3058016714859_1_alg».proof.Proof.Gen.Kernel.Frame
import proofs.«179465_j3058016714859_1_alg».proof.Proof.Gen.KernelIdeal
import proofs.«179465_j3058016714859_1_alg».proof.Proof.Gen.KernelIdeal.Skeleton
import proofs.«179465_j3058016714859_1_alg».proof.Proof.Gen.KernelIdeal.Launch
import proofs.«179465_j3058016714859_1_alg».proof.Proof.Gen.KernelIdeal.Points
import proofs.«179465_j3058016714859_1_alg».proof.Proof.Gen.KernelIdeal.Frame
import proofs.«179465_j3058016714859_1_alg».proof.Proof.Gen.ReferenceIdeal
import proofs.«179465_j3058016714859_1_alg».proof.Proof.Gen.Pre_finite_inputs
import proofs.«179465_j3058016714859_1_alg».proof.Proof.RefRunPatched
import proofs.«179465_j3058016714859_1_alg».proof.Proof.NamedRun
import proofs.«179465_j3058016714859_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- On the extended reals the idealized kernel's result buffer ends at the array its last segment boundary holds, and
    the reference's at its operations' composed term of arguments that agree: one array. -/
theorem algebraic : Cert.algebraic_KernelIdeal_ReferenceIdeal := by
  intro m ρ m' ρ' _ hagree
  refine ⟨fun c => Cert.KernelIdeal.Gen.W9 m ρ c (Proc.devRef .tc Cert.KernelIdeal.main_v71),
    Cert.KernelIdeal.NamedRun.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  exact Cert.Bridge.result_eq m ρ m' c h0 h1 h2 h3 h4 h5 h6

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
